-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S2048x1024 : Shape := ⟨2, ![2048, 1024]⟩
abbrev S2048 : Shape := ⟨1, ![2048]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4x256x512 .f32) (main_arg1 : FVec F S4x64x512 .f32) (main_arg2 : FVec F S2048x1024 .f32) (main_arg3 : FVec F S2048 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4x256x512 : Shape := ⟨3, ![4, 256, 512]⟩
abbrev S4x64x512 : Shape := ⟨3, ![4, 64, 512]⟩
abbrev S2048x1024 : Shape := ⟨2, ![2048, 1024]⟩
abbrev S2048 : Shape := ⟨1, ![2048]⟩
abbrev S2048x512 : Shape := ⟨2, ![2048, 512]⟩
abbrev S512x2048 : Shape := ⟨2, ![512, 2048]⟩
abbrev S1024x512 : Shape := ⟨2, ![1024, 512]⟩
abbrev S256x512 : Shape := ⟨2, ![256, 512]⟩
abbrev S1x2048 : Shape := ⟨2, ![1, 2048]⟩
abbrev S1024x2048 : Shape := ⟨2, ![1024, 2048]⟩
abbrev S128x512 : Shape := ⟨2, ![128, 512]⟩
abbrev S128x2048 : Shape := ⟨2, ![128, 2048]⟩
abbrev S256x2048 : Shape := ⟨2, ![256, 2048]⟩
abbrev S4x256x2048 : Shape := ⟨3, ![4, 256, 2048]⟩
abbrev S4x64x2048 : Shape := ⟨3, ![4, 64, 2048]⟩
abbrev S4x256x64x2048 : Shape := ⟨4, ![4, 256, 64, 2048]⟩
abbrev S1x32x2048 : Shape := ⟨3, ![1, 32, 2048]⟩
abbrev S1x64x2048 : Shape := ⟨3, ![1, 64, 2048]⟩
abbrev S1x32x64x2048 : Shape := ⟨4, ![1, 32, 64, 2048]⟩
abbrev S32x2048 : Shape := ⟨2, ![32, 2048]⟩
abbrev S1x8x2048 : Shape := ⟨3, ![1, 8, 2048]⟩
abbrev S8x2048 : Shape := ⟨2, ![8, 2048]⟩
abbrev S32x1x2048 : Shape := ⟨3, ![32, 1, 2048]⟩
abbrev S32x8x2048 : Shape := ⟨3, ![32, 8, 2048]⟩
abbrev S1x32x8x2048 : Shape := ⟨4, ![1, 32, 8, 2048]⟩

abbrev nBuf : Space → Nat
  | .hbm => 16
  | .vmem => 17
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S2048x1024, .f32⟩
  | .hbm, ⟨3, _⟩ => ⟨S2048, .f32⟩
  | .hbm, ⟨4, _⟩ => ⟨S2048x512, .f32⟩
  | .hbm, ⟨5, _⟩ => ⟨S2048x512, .f32⟩
  | .hbm, ⟨6, _⟩ => ⟨S512x2048, .f32⟩
  | .hbm, ⟨7, _⟩ => ⟨S512x2048, .f32⟩
  | .hbm, ⟨8, _⟩ => ⟨S1024x512, .f32⟩
  | .hbm, ⟨9, _⟩ => ⟨S256x512, .f32⟩
  | .hbm, ⟨10, _⟩ => ⟨S1x2048, .f32⟩
  | .hbm, ⟨11, _⟩ => ⟨S1024x2048, .f32⟩
  | .hbm, ⟨12, _⟩ => ⟨S256x2048, .f32⟩
  | .hbm, ⟨13, _⟩ => ⟨S4x256x2048, .f32⟩
  | .hbm, ⟨14, _⟩ => ⟨S4x64x2048, .f32⟩
  | .hbm, ⟨15, _⟩ => ⟨S4x256x64x2048, .f32⟩
  | .local _ .vmem, ⟨0, _⟩ => ⟨S128x512, .f32⟩
  | .local _ .vmem, ⟨1, _⟩ => ⟨S128x512, .f32⟩
  | .local _ .vmem, ⟨2, _⟩ => ⟨S512x2048, .f32⟩
  | .local _ .vmem, ⟨3, _⟩ => ⟨S1x2048, .f32⟩
  | .local _ .vmem, ⟨4, _⟩ => ⟨S128x2048, .f32⟩
  | .local _ .vmem, ⟨5, _⟩ => ⟨S128x2048, .f32⟩
  | .local _ .vmem, ⟨6, _⟩ => ⟨S128x512, .f32⟩
  | .local _ .vmem, ⟨7, _⟩ => ⟨S128x512, .f32⟩
  | .local _ .vmem, ⟨8, _⟩ => ⟨S512x2048, .f32⟩
  | .local _ .vmem, ⟨9, _⟩ => ⟨S128x2048, .f32⟩
  | .local _ .vmem, ⟨10, _⟩ => ⟨S128x2048, .f32⟩
  | .local _ .vmem, ⟨11, _⟩ => ⟨S1x32x2048, .f32⟩
  | .local _ .vmem, ⟨12, _⟩ => ⟨S1x32x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x32x64x2048, .f32⟩
  | .local _ .vmem, ⟨16, _⟩ => ⟨S1x32x64x2048, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 8], ![false, false]⟩

def k2_mult1 : BitVec 32 :=
  let c0_i32 : BitVec 32 := 0#32
  let c8_i32 : BitVec 32 := 8#32
  let v2 : BitVec 32 := Scalar.muli c0_i32 c8_i32
  v2
def k2_off1 (c0_i32 : BitVec 32) : Fin 3 → Nat :=
  let c0_2 : Index := 0#32
  let c8_i32 : BitVec 32 := 8#32
  let v2 : BitVec 32 := Scalar.muli c0_i32 c8_i32
  let v3 : BitVec 32 := v2
  let v4 : Index := Scalar.indexCast v3
  let c0_3 : Index := 0#32
  ![0, v4.toNat, 0]
def k2_off2 (c0_i32 : BitVec 32) : Fin 4 → Nat :=
  let c0_4 : Index := 0#32
  let c0_5 : Index := 0#32
  let c8_i32 : BitVec 32 := 8#32
  let v2 : BitVec 32 := Scalar.muli c0_i32 c8_i32
  let v3 : BitVec 32 := v2
  let v12 : Index := Scalar.indexCast v3
  let c0_6 : Index := 0#32
  ![0, 0, v12.toNat, 0]
def k2_mult2 : BitVec 32 :=
  let c1_i32 : BitVec 32 := 1#32
  let c8_i32_7 : BitVec 32 := 8#32
  let v16 : BitVec 32 := Scalar.muli c1_i32 c8_i32_7
  v16
def k2_mult3 : BitVec 32 :=
  let c2_i32 : BitVec 32 := 2#32
  let c8_i32_13 : BitVec 32 := 8#32
  let v30 : BitVec 32 := Scalar.muli c2_i32 c8_i32_13
  v30
def k2_mult4 : BitVec 32 :=
  let c3_i32 : BitVec 32 := 3#32
  let c8_i32_19 : BitVec 32 := 8#32
  let v44 : BitVec 32 := Scalar.muli c3_i32 c8_i32_19
  v44
def k2_mult5 : BitVec 32 :=
  let c4_i32 : BitVec 32 := 4#32
  let c8_i32_25 : BitVec 32 := 8#32
  let v58 : BitVec 32 := Scalar.muli c4_i32 c8_i32_25
  v58
def k2_mult6 : BitVec 32 :=
  let c5_i32 : BitVec 32 := 5#32
  let c8_i32_31 : BitVec 32 := 8#32
  let v72 : BitVec 32 := Scalar.muli c5_i32 c8_i32_31
  v72
def k2_mult7 : BitVec 32 :=
  let c6_i32 : BitVec 32 := 6#32
  let c8_i32_37 : BitVec 32 := 8#32
  let v86 : BitVec 32 := Scalar.muli c6_i32 c8_i32_37
  v86
def k2_mult8 : BitVec 32 :=
  let c7_i32 : BitVec 32 := 7#32
  let c8_i32_43 : BitVec 32 := 8#32
  let v100 : BitVec 32 := Scalar.muli c7_i32 c8_i32_43
  v100
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x32x64x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2048x1024_S2048x512_0_0 : S2048x1024.Slices ![0, 0] S2048x512
  slices_S2048x1024_S2048x512_0_512 : S2048x1024.Slices ![0, 512] S2048x512
  transposes_S2048x512_S512x2048_1_0 : S2048x512.Transposes [1, 0] S512x2048
  shapeCasts_S4x256x512_S1024x512 : S4x256x512.ShapeCasts S1024x512
  shapeCasts_S4x64x512_S256x512 : S4x64x512.ShapeCasts S256x512
  shapeCasts_S2048_S1x2048 : S2048.ShapeCasts S1x2048
  inb_S128x512_S128x512_0_0 : ∀ a, (![0, 0] : Fin 2 → Nat) a + S128x512.size a ≤ S128x512.size a
  h_S128x512 : 0 < S128x512.numel
  shapeCasts_S128x512_S128x512 : S128x512.ShapeCasts S128x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  shapeCasts_S1024x2048_S4x256x2048 : S1024x2048.ShapeCasts S4x256x2048
  shapeCasts_S256x2048_S4x64x2048 : S256x2048.ShapeCasts S4x64x2048
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  h_S1x8x2048 : 0 < S1x8x2048.numel
  shapeCasts_S1x8x2048_S8x2048 : S1x8x2048.ShapeCasts S8x2048
  shapeCasts_S32x2048_S32x1x2048 : S32x2048.ShapeCasts S32x1x2048
  shapeCasts_S8x2048_S1x8x2048 : S8x2048.ShapeCasts S1x8x2048
  broadcasts_S32x1x2048_S32x8x2048 : S32x1x2048.Broadcasts S32x8x2048
  broadcasts_S1x8x2048_S32x8x2048 : S1x8x2048.Broadcasts S32x8x2048
  h_S1x32x8x2048 : 0 < S1x32x8x2048.numel
  shapeCasts_S1x32x8x2048_S32x8x2048 : S1x32x8x2048.ShapeCasts S32x8x2048
  shapeCasts_S32x8x2048_S1x32x8x2048 : S32x8x2048.ShapeCasts S1x32x8x2048
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S1024x2048.size a
  hwx0_3 : ∀ i : grid0.Coords, EltTy.bits .f32 = 32 ∨ (Rect.block (s := S1024x2048) S128x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S256x512.size a
  hwx1_0 : ∀ i : grid1.Coords, EltTy.bits .f32 = 32 ∨ (Rect.block (s := S256x512) S128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x2048.size a
  hwx1_1 : ∀ i : grid1.Coords, EltTy.bits .f32 = 32 ∨ (Rect.block (s := S512x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S256x2048.size a
  hwx1_2 : ∀ i : grid1.Coords, EltTy.bits .f32 = 32 ∨ (Rect.block (s := S256x2048) S128x2048.size (cc1_transform_2 i) (hinb1_2 i)).WholeWords (EltTy.packing .f32)
  hrank2 : 0 < grid2.rank
  k2_mult1_dvd : 8 ∣ k2_mult1.toNat
  k2_off1_inb : ∀ (r : Fin 8), ∀ a, (k2_off1 (BitVec.ofNat 32 r.val)) a + S1x8x2048.size a ≤ S1x64x2048.size a
  k2_off2_inb : ∀ (r : Fin 8), ∀ a, (k2_off2 (BitVec.ofNat 32 r.val)) a + S1x32x8x2048.size a ≤ S1x32x64x2048.size a
  k2_mult2_dvd : 8 ∣ k2_mult2.toNat
  k2_mult3_dvd : 8 ∣ k2_mult3.toNat
  k2_mult4_dvd : 8 ∣ k2_mult4.toNat
  k2_mult5_dvd : 8 ∣ k2_mult5.toNat
  k2_mult6_dvd : 8 ∣ k2_mult6.toNat
  k2_mult7_dvd : 8 ∣ k2_mult7.toNat
  k2_mult8_dvd : 8 ∣ k2_mult8.toNat
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x2048.size a ≤ S4x256x2048.size a
  hwx2_0 : ∀ i : grid2.Coords, EltTy.bits .f32 = 32 ∨ (Rect.block (s := S4x256x2048) S1x32x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x2048.size a ≤ S4x64x2048.size a
  hwx2_1 : ∀ i : grid2.Coords, EltTy.bits .f32 = 32 ∨ (Rect.block (s := S4x64x2048) S1x64x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x32x64x2048.size a ≤ S4x256x64x2048.size a
  hwx2_2 : ∀ i : grid2.Coords, EltTy.bits .f32 = 32 ∨ (Rect.block (s := S4x256x64x2048) S1x32x64x2048.size (cc2_transform_2 i) (hinb2_2 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_v4) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S128x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S1x32x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x64x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x32x64x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S2048x1024 : Shape := ⟨2, ![2048, 1024]⟩
abbrev S2048 : Shape := ⟨1, ![2048]⟩
abbrev S2048x512 : Shape := ⟨2, ![2048, 512]⟩
abbrev S4x256x2048 : Shape := ⟨3, ![4, 256, 2048]⟩
abbrev S4x64x2048 : Shape := ⟨3, ![4, 64, 2048]⟩
abbrev S4x256x1x2048 : Shape := ⟨4, ![4, 256, 1, 2048]⟩
abbrev S4x1x64x2048 : Shape := ⟨4, ![4, 1, 64, 2048]⟩
abbrev S4x256x64x2048 : Shape := ⟨4, ![4, 256, 64, 2048]⟩
abbrev S1x1x1x2048 : Shape := ⟨4, ![1, 1, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S2048x1024, .f32⟩
  | .hbm, ⟨3, _⟩ => ⟨S2048, .f32⟩
  | .hbm, ⟨4, _⟩ => ⟨S2048x512, .f32⟩
  | .hbm, ⟨5, _⟩ => ⟨S2048x512, .f32⟩
  | .hbm, ⟨6, _⟩ => ⟨S4x256x2048, .f32⟩
  | .hbm, ⟨7, _⟩ => ⟨S4x64x2048, .f32⟩
  | .hbm, ⟨8, _⟩ => ⟨S4x256x1x2048, .f32⟩
  | .hbm, ⟨9, _⟩ => ⟨S4x1x64x2048, .f32⟩
  | .hbm, ⟨10, _⟩ => ⟨S4x256x64x2048, .f32⟩
  | .hbm, ⟨11, _⟩ => ⟨S4x256x64x2048, .f32⟩
  | .hbm, ⟨12, _⟩ => ⟨S4x256x64x2048, .f32⟩
  | .hbm, ⟨13, _⟩ => ⟨S1x1x1x2048, .f32⟩
  | .hbm, ⟨14, _⟩ => ⟨S4x256x64x2048, .f32⟩
  | .hbm, ⟨15, _⟩ => ⟨S4x256x64x2048, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  slices_S2048x1024_S2048x512_0_0 : S2048x1024.Slices ![0, 0] S2048x512
  slices_S2048x1024_S2048x512_0_512 : S2048x1024.Slices ![0, 512] S2048x512
  bcast_S4x256x2048_S4x256x1x2048_0_1_3 : S4x256x2048.BroadcastsInDim S4x256x1x2048 (![0, 1, 3] : Fin 3 → Fin S4x256x1x2048.rank)
  bcast_S4x64x2048_S4x1x64x2048_0_2_3 : S4x64x2048.BroadcastsInDim S4x1x64x2048 (![0, 2, 3] : Fin 3 → Fin S4x1x64x2048.rank)
  bcast_S4x256x1x2048_S4x256x64x2048_0_1_2_3 : S4x256x1x2048.BroadcastsInDim S4x256x64x2048 (![0, 1, 2, 3] : Fin 4 → Fin S4x256x64x2048.rank)
  bcast_S4x1x64x2048_S4x256x64x2048_0_1_2_3 : S4x1x64x2048.BroadcastsInDim S4x256x64x2048 (![0, 1, 2, 3] : Fin 4 → Fin S4x256x64x2048.rank)
  bcast_S2048_S1x1x1x2048_3 : S2048.BroadcastsInDim S1x1x1x2048 (![3] : Fin 1 → Fin S1x1x1x2048.rank)
  bcast_S1x1x1x2048_S4x256x64x2048_0_1_2_3 : S1x1x1x2048.BroadcastsInDim S4x256x64x2048 (![0, 1, 2, 3] : Fin 4 → Fin S4x256x64x2048.rank)
  dot_S4x256x512_S2048x512_S4x256x2048_2_1_01_0_n_n_wf : DotDims.WF S4x256x512 S2048x512 S4x256x2048 [2] [1] [0, 1] [0] [] []
  dot_S4x64x512_S2048x512_S4x64x2048_2_1_01_0_n_n_wf : DotDims.WF S4x64x512 S2048x512 S4x64x2048 [2] [1] [0, 1] [0] [] []

variable [Facts₀]

def dot_S4x256x512_S2048x512_S4x256x2048_2_1_01_0_n_n : DotDims S4x256x512 S2048x512 S4x256x2048 where
  lhsContracting := [2]
  rhsContracting := [1]
  lhsNonContracting := [0, 1]
  rhsNonContracting := [0]
  lhsBatch := []
  rhsBatch := []
  wf := dot_S4x256x512_S2048x512_S4x256x2048_2_1_01_0_n_n_wf
def dot_S4x64x512_S2048x512_S4x64x2048_2_1_01_0_n_n : DotDims S4x64x512 S2048x512 S4x64x2048 where
  lhsContracting := [2]
  rhsContracting := [1]
  lhsNonContracting := [0, 1]
  rhsNonContracting := [0]
  lhsBatch := []
  rhsBatch := []
  wf := dot_S4x64x512_S2048x512_S4x64x2048_2_1_01_0_n_n_wf

class Facts : Prop extends Facts₀ where

variable [Facts]
-- ==== Proof.LibLayout3.lean ====
/-
  Rank-3 layout operations read at an index given by coordinates.

  A shape cast keeps the row-major position of an element, and a broadcast reads coordinate 0 on each unit
  axis of its operand. The lemmas below spell this out, for indices written by their coordinates, in the cases
  an outer product of two row blocks flattened for a matrix product needs:
  * inserting a unit axis in the middle, `[a, c] → [a, 1, c]`;
  * flattening the two leading axes, `[a, b, c] → [a * b, c]` (row `i * b + k` is the pair `(i, k)`), and back;
  * stretching a unit axis, `[a, 1, c] → [a, b, c]`, `[1, b, c] → [a, b, c]`, `[1, 1, c] → [a, b, c]`.
-/
import Idealize.ShloMosaic.Lib.Pipeline.Value
import Idealize.ShloMosaic.Lib.ValueIdx

namespace Cert.Layout3

open Idealize.ShloMosaic Idealize.ShloMosaic.ValueIdx

variable {α : Type}

/-! ## Shape casts -/

/-- An `[a, c]` array cast to `[a, 1, c]` reads, at `(i, u, j)`, the operand at `(i, j)`: both have row-major
    position `i * c + j`, the unit coordinate `u` being `0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, c]` array cast to `[m, c]` reads, at `(r, j)` with `r = i * b + k`, the operand at `(i, k, j)`: both have
    row-major position `(i * b + k) * c + j`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (j : Fin c) (i : Fin a) (k : Fin b)
    (hr : r.val = i.val * b + k.val) :
    shapeCast ⟨2, ![m, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[m, c]` array cast to `[a, b, c]` reads, at `(i, k, j)`, the operand at `(r, j)` with `r = i * b + k`. -/
theorem shapeCast_mc_abc_apply {a b c m : ℕ} (x : (⟨2, ![m, c]⟩ : Shape).Idx → α)
    (h : (⟨2, ![m, c]⟩ : Shape).ShapeCasts ⟨3, ![a, b, c]⟩) (i : Fin a) (k : Fin b) (j : Fin c) (r : Fin m)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-! ## Broadcasts along unit axes -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Cert.Layout3
-- ==== Proof.Spec.lean ====
/-
  The RNN-T joint network as functions of arrays, read index by index on the extended reals.

  For encoder states enc[b,t,·], predictor states pred[b,u,·], a weight matrix W[v,·] whose first 512 columns act
  on the encoder and whose last 512 act on the predictor, and a bias bias[v]:

      logits[b,t,u,v] = (Σ_k enc[b,t,k]·W[v,k] + bias[v]) + Σ_k pred[b,u,k]·W[v,512+k].

  The computation goes through four stages, each a function of whole arrays:
  * `encProj`  — rows of the flattened encoder states [1024, 512] times the transposed weights [512, 2048], plus the
    bias row [1, 2048];
  * `predProj` — rows of the flattened predictor states [256, 512] times the other transposed weights;
  * `outer`    — the broadcast sum E[b,t,v] + P[b,u,v] of the two projections seen as [4, 256, 2048] and
    [4, 64, 2048];
  * the reshapes, slices and transposes between them, which only rename indices.
  `stages_eq` says the stages composed are `logits`, and `logitsAt_bias_last` that the bias may as well be added
  last: addition on the extended reals is commutative and associative with no finiteness needed.
-/
import Idealize.ShloMosaic.PureOps.Ideal.Laws
import Idealize.ShloMosaic.Lib.ValueIdx
import Idealize.ShloMosaic.Lib.ValueLayout
import proofs.«168008_j84404697301336_2_alg».proof.Proof.LibLayout3

noncomputable section

namespace Cert.Joint

open Idealize.ShloMosaic Idealize.ShloMosaic.ValueIdx

/-- Entry (r, c) of a product with a [512, 2048] matrix: Σ_k X[r,k]·Wt[k,c]. -/
def rowDot {n : Nat} (X : (⟨2, ![n, 512]⟩ : Shape).Idx → EReal) (Wt : (⟨2, ![512, 2048]⟩ : Shape).Idx → EReal)
    (r : Fin n) (c : Fin 2048) : EReal :=
  ∑ k : Fin 512, X (ix2 r k) * Wt (ix2 k c)

/-- The encoder projection with the bias row added: entry (r, c) is Σ_k X[r,k]·Wt[k,c] + B[0,c]. -/
def encProj (X : (⟨2, ![1024, 512]⟩ : Shape).Idx → EReal) (Wt : (⟨2, ![512, 2048]⟩ : Shape).Idx → EReal)
    (B : (⟨2, ![1, 2048]⟩ : Shape).Idx → EReal) : (⟨2, ![1024, 2048]⟩ : Shape).Idx → EReal :=
  fun i => rowDot (n := 1024) X Wt (i 0) (i 1) + B (ix2 (0 : Fin 1) (i 1))

/-- The predictor projection: entry (r, c) is Σ_k X[r,k]·Wt[k,c]. -/
def predProj (X : (⟨2, ![256, 512]⟩ : Shape).Idx → EReal) (Wt : (⟨2, ![512, 2048]⟩ : Shape).Idx → EReal) :
    (⟨2, ![256, 2048]⟩ : Shape).Idx → EReal :=
  fun i => rowDot (n := 256) X Wt (i 0) (i 1)

/-- The broadcast sum: entry (b, t, u, v) is E[b,t,v] + P[b,u,v]. -/
def outer (E : (⟨3, ![4, 256, 2048]⟩ : Shape).Idx → EReal) (P : (⟨3, ![4, 64, 2048]⟩ : Shape).Idx → EReal) :
    (⟨4, ![4, 256, 64, 2048]⟩ : Shape).Idx → EReal :=
  fun i => E (ix3 (i 0) (i 1) (i 3)) + P (ix3 (i 0) (i 2) (i 3))

theorem encProj_at (X : (⟨2, ![1024, 512]⟩ : Shape).Idx → EReal) (Wt : (⟨2, ![512, 2048]⟩ : Shape).Idx → EReal)
    (B : (⟨2, ![1, 2048]⟩ : Shape).Idx → EReal) (r : Fin 1024) (c : Fin 2048) :
    encProj X Wt B (ix2 r c) = rowDot X Wt r c + B (ix2 (0 : Fin 1) c) := rfl

theorem predProj_at (X : (⟨2, ![256, 512]⟩ : Shape).Idx → EReal) (Wt : (⟨2, ![512, 2048]⟩ : Shape).Idx → EReal)
    (r : Fin 256) (c : Fin 2048) : predProj X Wt (ix2 r c) = rowDot X Wt r c := rfl

theorem outer_at (E : (⟨3, ![4, 256, 2048]⟩ : Shape).Idx → EReal) (P : (⟨3, ![4, 64, 2048]⟩ : Shape).Idx → EReal)
    (b : Fin 4) (t : Fin 256) (u : Fin 64) (v : Fin 2048) :
    outer E P (ix4 b t u v) = E (ix3 b t v) + P (ix3 b u v) := rfl

/-- Column k of the encoder half of the weights, and of the predictor half. -/
abbrev encCol (k : Fin 512) : Fin 1024 := ⟨k.val, by omega⟩
abbrev predCol (k : Fin 512) : Fin 1024 := ⟨512 + k.val, by omega⟩

/-- The joint network's entry (b, t, u, v), the bias added to the encoder's projection. -/
def logitsAt (enc : (⟨3, ![4, 256, 512]⟩ : Shape).Idx → EReal) (pred : (⟨3, ![4, 64, 512]⟩ : Shape).Idx → EReal)
    (W : (⟨2, ![2048, 1024]⟩ : Shape).Idx → EReal) (bias : (⟨1, ![2048]⟩ : Shape).Idx → EReal)
    (b : Fin 4) (t : Fin 256) (u : Fin 64) (v : Fin 2048) : EReal :=
  ((∑ k : Fin 512, enc (ix3 b t k) * W (ix2 v (encCol k))) + bias (ix1 v))
    + ∑ k : Fin 512, pred (ix3 b u k) * W (ix2 v (predCol k))

/-- The joint network as one array. -/
def logits (enc : (⟨3, ![4, 256, 512]⟩ : Shape).Idx → EReal) (pred : (⟨3, ![4, 64, 512]⟩ : Shape).Idx → EReal)
    (W : (⟨2, ![2048, 1024]⟩ : Shape).Idx → EReal) (bias : (⟨1, ![2048]⟩ : Shape).Idx → EReal) :
    (⟨4, ![4, 256, 64, 2048]⟩ : Shape).Idx → EReal :=
  fun i => logitsAt enc pred W bias (i 0) (i 1) (i 2) (i 3)

/-- The bias may be added last: (A + c) + B = (A + B) + c in a commutative monoid. -/
theorem logitsAt_bias_last (enc : (⟨3, ![4, 256, 512]⟩ : Shape).Idx → EReal) (pred : (⟨3, ![4, 64, 512]⟩ : Shape).Idx → EReal)
    (W : (⟨2, ![2048, 1024]⟩ : Shape).Idx → EReal) (bias : (⟨1, ![2048]⟩ : Shape).Idx → EReal)
    (b : Fin 4) (t : Fin 256) (u : Fin 64) (v : Fin 2048) :
    logitsAt enc pred W bias b t u v
      = ((∑ k : Fin 512, enc (ix3 b t k) * W (ix2 v (encCol k)))
          + ∑ k : Fin 512, pred (ix3 b u k) * W (ix2 v (predCol k))) + bias (ix1 v) :=
  add_right_comm _ _ _

/-- Row b·256 + t of the flattened encoder states, and row b·64 + u of the flattened predictor states. -/
abbrev encRow (b : Fin 4) (t : Fin 256) : Fin 1024 := ⟨b.val * 256 + t.val, by omega⟩
abbrev predRow (b : Fin 4) (u : Fin 64) : Fin 256 := ⟨b.val * 64 + u.val, by omega⟩

/-- THE STAGES COMPOSED ARE THE NETWORK. Flatten the states, cut the weights in two and transpose each half, add the
    bias row to the encoder's product, view the two products per batch again, and take the broadcast sum: at
    (b, t, u, v) every reshape, slice and transpose only renames an index, so the result is `logits`. -/
theorem stages_eq (enc : (⟨3, ![4, 256, 512]⟩ : Shape).Idx → EReal) (pred : (⟨3, ![4, 64, 512]⟩ : Shape).Idx → EReal)
    (W : (⟨2, ![2048, 1024]⟩ : Shape).Idx → EReal) (bias : (⟨1, ![2048]⟩ : Shape).Idx → EReal)
    (hs0 : (⟨2, ![2048, 1024]⟩ : Shape).Slices ![0, 0] ⟨2, ![2048, 512]⟩)
    (hs1 : (⟨2, ![2048, 1024]⟩ : Shape).Slices ![0, 512] ⟨2, ![2048, 512]⟩)
    (ht : (⟨2, ![2048, 512]⟩ : Shape).Transposes [1, 0] ⟨2, ![512, 2048]⟩)
    (hc0 : (⟨3, ![4, 256, 512]⟩ : Shape).ShapeCasts ⟨2, ![1024, 512]⟩)
    (hc1 : (⟨3, ![4, 64, 512]⟩ : Shape).ShapeCasts ⟨2, ![256, 512]⟩)
    (hc3 : (⟨1, ![2048]⟩ : Shape).ShapeCasts ⟨2, ![1, 2048]⟩)
    (hc7 : (⟨2, ![1024, 2048]⟩ : Shape).ShapeCasts ⟨3, ![4, 256, 2048]⟩)
    (hc8 : (⟨2, ![256, 2048]⟩ : Shape).ShapeCasts ⟨3, ![4, 64, 2048]⟩) :
    outer
        (shapeCast ⟨3, ![4, 256, 2048]⟩
          (encProj (shapeCast ⟨2, ![1024, 512]⟩ enc hc0)
            (transpose ⟨2, ![512, 2048]⟩ [1, 0] (extractStridedSlice ⟨2, ![2048, 512]⟩ ![0, 0] W hs0) ht)
            (shapeCast ⟨2, ![1, 2048]⟩ bias hc3)) hc7)
        (shapeCast ⟨3, ![4, 64, 2048]⟩
          (predProj (shapeCast ⟨2, ![256, 512]⟩ pred hc1)
            (transpose ⟨2, ![512, 2048]⟩ [1, 0] (extractStridedSlice ⟨2, ![2048, 512]⟩ ![0, 512] W hs1) ht)) hc8)
      = logits enc pred W bias := by
  funext i
  obtain ⟨b, t, u, v, rfl⟩ : ∃ (b : Fin 4) (t : Fin 256) (u : Fin 64) (v : Fin 2048), i = ix4 b t u v :=
    ⟨i 0, i 1, i 2, i 3, eq_ix4 i⟩
  rw [outer_at]
  rw [Cert.Layout3.shapeCast_mc_abc_apply _ hc7 b t v (encRow b t) rfl,
    Cert.Layout3.shapeCast_mc_abc_apply _ hc8 b u v (predRow b u) rfl, encProj_at, predProj_at,
    shapeCast_a_1a_apply bias hc3 (0 : Fin 1) v]
  show (rowDot _ _ (encRow b t) v + bias (ix1 v)) + rowDot _ _ (predRow b u) v = logitsAt enc pred W bias b t u v
  unfold rowDot logitsAt
  refine congrArg₂ (· + ·) (congrArg (· + bias (ix1 v)) (Finset.sum_congr rfl fun k _ => ?_)) (Finset.sum_congr rfl fun k _ => ?_)
  · rw [Cert.Layout3.shapeCast_abc_mc_apply enc hc0 (encRow b t) k b t rfl, transpose_ix2_apply _ ht k v,
      slice2_axis1_apply 0 W hs0 v k (encCol k) (by show k.val = 0 + k.val; omega)]
  · rw [Cert.Layout3.shapeCast_abc_mc_apply pred hc1 (predRow b u) k b u rfl, transpose_ix2_apply _ ht k v,
      slice2_axis1_apply 512 W hs1 v k (predCol k) rfl]

end Cert.Joint

end
-- ==== Proof.RefValue.lean ====
/-
  The reference computes the joint network: read at (b, t, u, v), its two contractions over the sliced weights,
  broadcast over the other sequence axis and added, then the broadcast bias added, are
  (Σ_k enc[b,t,k]·W[v,k] + Σ_k pred[b,u,k]·W[v,512+k]) + bias[v], which is `logits` with the bias moved last.
-/
import proofs.«168008_j84404697301336_2_alg».proof.Proof.Gen.ReferenceIdeal.Read
import proofs.«168008_j84404697301336_2_alg».proof.Proof.Spec

noncomputable section

namespace Cert.Joint.Reference

open Cert.ReferenceIdeal Cert.ReferenceIdeal.Read Idealize.ShloMosaic Idealize.ShloMosaic.ValueIdx

/-- The reference's last stage, as a function of the four arguments, is the joint network. -/
theorem stage_eq (x0 : (⟨S4x256x512, .f32⟩ : BufTy).Contents (Elt Ideal)) (x1 : (⟨S4x64x512, .f32⟩ : BufTy).Contents (Elt Ideal))
    (x2 : (⟨S2048x1024, .f32⟩ : BufTy).Contents (Elt Ideal)) (x3 : (⟨S2048, .f32⟩ : BufTy).Contents (Elt Ideal)) :
    val_main_v11 (F := Ideal) x0 x1 x2 x3 = Cert.Joint.logits x0 x1 x2 x3 := by
  funext i
  obtain ⟨b, t, u, v, rfl⟩ : ∃ (b : Fin 4) (t : Fin 256) (u : Fin 64) (v : Fin 2048), i = ix4 b t u v :=
    ⟨i 0, i 1, i 2, i 3, eq_ix4 i⟩
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply]
  refine Eq.trans ?_ (Cert.Joint.logitsAt_bias_last x0 x1 x2 x3 b t u v).symm
  show (_ + _) + _ = (_ + _) + _
  refine congrArg₂ (· + ·) (congrArg₂ (· + ·) (Finset.sum_congr rfl fun k _ => ?_) (Finset.sum_congr rfl fun k _ => ?_)) ?_
  · exact congrArg₂ (· * ·)
      (congrArg x0 (funext fun a => Fin.ext (by match a with | ⟨0, _⟩ => rfl | ⟨1, _⟩ => rfl | ⟨2, _⟩ => rfl)))
      (congrArg x2 (funext fun a => Fin.ext (by match a with | ⟨0, _⟩ => rfl | ⟨1, _⟩ => rfl)))
  · exact congrArg₂ (· * ·)
      (congrArg x1 (funext fun a => Fin.ext (by match a with | ⟨0, _⟩ => rfl | ⟨1, _⟩ => rfl | ⟨2, _⟩ => rfl)))
      (congrArg x2 (funext fun a => Fin.ext (by match a with | ⟨0, _⟩ => rfl | ⟨1, _⟩ => rfl)))
  · exact congrArg x3 (funext fun a => Fin.ext (by match a with | ⟨0, _⟩ => rfl))

end Cert.Joint.Reference

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.MatmulBodies.lean ====
/-
  The two projection bodies at an entry. Each loads a [128, 512] block of rows and the whole [512, 2048] transposed
  weights, rounds both to bf16 (the identity on the extended reals) and multiplies them into a zero accumulator; the
  encoder's body then adds the bias row broadcast down the 128 rows. So entry (p, q) of what it stores is
  Σ_k rows[p,k]·Wt[k,q] (+ bias[0,q]).
-/
import proofs.«168008_j84404697301336_2_alg».proof.Proof.Gen.KernelIdeal.Skeleton
import proofs.«168008_j84404697301336_2_alg».proof.Proof.LibSplitContraction
import proofs.«168008_j84404697301336_2_alg».proof.Proof.Spec
import Idealize.ShloMosaic.Lib.Pipeline.Value
import Idealize.ShloMosaic.Lib.ValueLayout

noncomputable section

namespace Cert.Joint.Matmul

open Cert.KernelIdeal Cert.KernelIdeal.Gen Idealize.ShloMosaic Idealize.ShloMosaic.ValueIdx

/-- The product's dimension record: the left operand's axis 1 contracted with the right's axis 0. -/
abbrev dims : DotDims S128x512 S512x2048 S128x2048 := dot_S128x512_S512x2048_S128x2048_1_0_0_1_n_n

theorem lhs_row (j : S128x2048.Idx) (q : dims.contr.Idx) : (dims.lhsIdx j q 0).val = (j 0).val := by
  unfold DotDims.lhsIdx
  rw [dif_neg (show ¬(0 : Fin S128x512.rank) ∈ dims.lhsBatch by decide),
    dif_pos (show (0 : Fin S128x512.rank) ∈ dims.lhsNonContracting by decide)]
  rfl

theorem lhs_contr (j : S128x2048.Idx) (q : dims.contr.Idx) : (dims.lhsIdx j q 1).val = (q ⟨0, by decide⟩).val :=
  dims.lhsIdx_val_of_single rfl j q

theorem rhs_contr (j : S128x2048.Idx) (q : dims.contr.Idx) : (dims.rhsIdx j q 0).val = (q ⟨0, by decide⟩).val :=
  dims.rhsIdx_val_of_single rfl j q

theorem rhs_col (j : S128x2048.Idx) (q : dims.contr.Idx) : (dims.rhsIdx j q 1).val = (j 1).val := by
  unfold DotDims.rhsIdx
  rw [dif_neg (show ¬(1 : Fin S512x2048.rank) ∈ dims.rhsBatch by decide),
    dif_pos (show (1 : Fin S512x2048.rank) ∈ dims.rhsNonContracting by decide)]
  rfl

/-- The product into the zero accumulator at (p, q). -/
theorem product_at (lhs : FVec Ideal S128x512 .bf16) (rhs : FVec Ideal S512x2048 .bf16) (p : Fin 128) (q : Fin 2048) :
    matmul dims none lhs rhs (constant (F := Ideal) S128x2048 .f32 0x00000000#32) (ix2 p q)
      = ∑ k : Fin 512, lhs (ix2 p k) * rhs (ix2 k q) :=
  Cert.Lib.SplitContraction.matmul_zero_at dims rfl rfl lhs_row lhs_contr rhs_contr rhs_col none lhs rhs p q

/-- The predictor's body at (p, q): Σ_k rows[p,k]·Wt[k,q]. -/
theorem pred_body_at (x0 : Vec Ideal S128x512 .f32) (x1 : Vec Ideal S512x2048 .f32) (p : Fin 128) (q : Fin 2048) :
    k1_pay1 (F := Ideal) x0 x1 (ix2 p q) = Cert.Joint.rowDot (n := 128) x0 x1 p q := by
  unfold k1_pay1
  refine (product_at _ _ p q).trans ?_
  rw [shapeCast_self, shapeCast_self]
  rfl

/-- The encoder's body at (p, q): Σ_k rows[p,k]·Wt[k,q] + bias[0,q]. -/
theorem enc_body_at (x0 : Vec Ideal S128x512 .f32) (x1 : Vec Ideal S512x2048 .f32) (x2 : Vec Ideal S1x2048 .f32)
    (p : Fin 128) (q : Fin 2048) :
    k0_pay1 (F := Ideal) x0 x1 x2 (ix2 p q) = Cert.Joint.rowDot (n := 128) x0 x1 p q + x2 (ix2 (0 : Fin 1) q) := by
  unfold k0_pay1
  refine congrArg₂ (· + ·) ((product_at _ _ p q).trans ?_) ((broadcastTo_1b_ab_apply _ _ p q).trans ?_)
  · rw [shapeCast_self, shapeCast_self]
    rfl
  · rw [shapeCast_self]

end Cert.Joint.Matmul

end
-- ==== Proof.EncRegion.lean ====
/-
  The encoder's projection region, from blocks to the whole array. Grid point t holds rows 128·t … 128·t + 127 of
  the flattened encoder states, the whole transposed weights and the whole bias row, and writes back rows
  128·t … 128·t + 127 of the product plus bias. The eight row blocks tile the [1024, 2048] result, so after the region
  the result array is `encProj` of the three operand arrays as the region found them.
-/
import proofs.«168008_j84404697301336_2_alg».proof.Proof.Gen.KernelIdeal.Frame
import proofs.«168008_j84404697301336_2_alg».proof.Proof.MatmulBodies

noncomputable section

namespace Cert.Joint.EncRegion

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The block indices over the grid: the row operand and the result move with the point, the weights and the bias
    stay at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block of the body's result is the same block of `encProj`, given that the loaded blocks are the operands'
    row block r − p, the whole weights and the whole bias row. -/
theorem block_entry (X : (⟨2, ![1024, 512]⟩ : Shape).Idx → EReal) (Wt : (⟨2, ![512, 2048]⟩ : Shape).Idx → EReal)
    (B : (⟨2, ![1, 2048]⟩ : Shape).Idx → EReal)
    (x0 : Vec Ideal S128x512 .f32) (x1 : Vec Ideal S512x2048 .f32) (x2 : Vec Ideal S1x2048 .f32)
    (p : Fin 128) (q : Fin 2048) (r : Fin 1024)
    (h0 : ∀ k : Fin 512, x0 (ix2 p k) = X (ix2 r k)) (h1 : ∀ k : Fin 512, x1 (ix2 k q) = Wt (ix2 k q))
    (h2 : x2 (ix2 (0 : Fin 1) q) = B (ix2 (0 : Fin 1) q)) :
    k0_pay1 (F := Ideal) x0 x1 x2 (ix2 p q) = Cert.Joint.encProj X Wt B (ix2 r q) := by
  rw [Cert.Joint.Matmul.enc_body_at, Cert.Joint.encProj_at, h2]
  unfold Cert.Joint.rowDot
  exact congrArg (· + B (ix2 (0 : Fin 1) q)) (Finset.sum_congr rfl fun k _ => by rw [h0 k, h1 k])

/-- What point t writes back is block t of `encProj` of the operand arrays as the region finds them. -/
theorem flushed_eq (c : Dev nD) (t : Fin cfg0.N) :
    (dat0 V c).flushed 3 t = ((cfg0.win 3).blk t).view.read (Elt Ideal)
      (Cert.Joint.encProj (V c main_v4) (V c main_v2) (V c main_v6)) := by
  show (cfg0.win 3).cut (grid0.coords t) ((dat0 V c).after 3 t) = _
  rw [after0_3]
  unfold out0_3
  rw [View.canon_unit_zero zero2]
  simp only [View.ld_unit_zero (S := S128x512) zero2, View.ld_unit_zero (S := S512x2048) zero2,
    View.ld_unit_zero (S := S1x2048) zero2]
  obtain ⟨e00, e01, e10, e11, e20, e21, e30, e31⟩ := index_facts t
  have ht : t.val < 8 := lt_of_lt_of_eq t.isLt N_0
  funext j
  have hj0 : (j 0).val < 128 := (j 0).isLt
  have hj1 : (j 1).val < 2048 := (j 1).isLt
  show k0_pay1 (F := Ideal) (iblk0 V c 0 t) (iblk0 V c 1 t) (iblk0 V c 2 t) j
    = Cert.Joint.encProj (V c main_v4) (V c main_v2) (V c main_v6) (((cfg0.win 3).blk t).view.emb j)
  have ej : j = ix2 (⟨(j 0).val, hj0⟩ : Fin 128) (⟨(j 1).val, hj1⟩ : Fin 2048) :=
    funext fun a => by match a with | ⟨0, _⟩ => rfl | ⟨1, _⟩ => rfl
  refine (congrArg (k0_pay1 (F := Ideal) (iblk0 V c 0 t) (iblk0 V c 1 t) (iblk0 V c 2 t)) ej).trans ?_
  refine (block_entry (V c main_v4) (V c main_v2) (V c main_v6) (iblk0 V c 0 t) (iblk0 V c 1 t) (iblk0 V c 2 t)
    ⟨(j 0).val, hj0⟩ ⟨(j 1).val, hj1⟩ ⟨t.val * 128 + (j 0).val, by omega⟩ ?_ ?_ ?_).trans ?_
  · intro k
    show V c main_v4 (((cfg0.win 0).blk t).view.emb (ix2 (⟨(j 0).val, hj0⟩ : Fin 128) k)) = _
    refine congrArg _ (funext fun a => Fin.ext ?_)
    match a with
    | ⟨0, _⟩ => show win0_0.index t (0 : Fin 2) * 128 + 1 * (j 0).val = t.val * 128 + (j 0).val; omega
    | ⟨1, _⟩ => show win0_0.index t (1 : Fin 2) * 512 + 1 * k.val = k.val; omega
  · intro k
    show V c main_v2 (((cfg0.win 1).blk t).view.emb (ix2 k (⟨(j 1).val, hj1⟩ : Fin 2048))) = _
    refine congrArg _ (funext fun a => Fin.ext ?_)
    match a with
    | ⟨0, _⟩ => show win0_1.index t (0 : Fin 2) * 512 + 1 * k.val = k.val; omega
    | ⟨1, _⟩ => show win0_1.index t (1 : Fin 2) * 2048 + 1 * (j 1).val = (j 1).val; omega
  · show V c main_v6 (((cfg0.win 2).blk t).view.emb (ix2 (0 : Fin 1) (⟨(j 1).val, hj1⟩ : Fin 2048))) = _
    refine congrArg _ (funext fun a => Fin.ext ?_)
    match a with
    | ⟨0, _⟩ => show win0_2.index t (0 : Fin 2) * 1 + 1 * 0 = 0; omega
    | ⟨1, _⟩ => show win0_2.index t (1 : Fin 2) * 2048 + 1 * (j 1).val = (j 1).val; omega
  · refine congrArg _ (funext fun a => Fin.ext ?_)
    match a with
    | ⟨0, _⟩ => show t.val * 128 + (j 0).val = win0_3.index t (0 : Fin 2) * 128 + 1 * (j 0).val; omega
    | ⟨1, _⟩ => show (j 1).val = win0_3.index t (1 : Fin 2) * 2048 + 1 * (j 1).val; omega

/-- An index of the result array is in point t's block iff each coordinate is in the block's range on its axis. -/
theorem mem_blk (t : Fin cfg0.N) (i : S1024x2048.Idx) :
    i ∈ ((cfg0.win 3).blk t).view.set ↔ ∀ a : Fin 2, win0_3.index t a * S128x2048.size a ≤ (i a).val
      ∧ (i a).val < win0_3.index t a * S128x2048.size a + S128x2048.size a := by
  show i ∈ ((View.whole main_v7).slice (win0_3.rect t)).set ↔ _
  rw [View.set_slice_whole, Rect.mem_set_unit]
  exact Iff.rfl

/-- Row r of the result lies in the block of point r / 128: the blocks cover the array. -/
theorem covered (i : S1024x2048.Idx) :
    ∃ t : Fin cfg0.N, (cfg0.win 3).flush t = true ∧ i ∈ ((cfg0.win 3).blk t).view.set := by
  have hi0 : (i 0).val < 1024 := (i 0).isLt
  have hi1 : (i 1).val < 2048 := (i 1).isLt
  obtain ⟨t, htv⟩ : ∃ t : Fin cfg0.N, t.val = (i 0).val / 128 :=
    ⟨⟨(i 0).val / 128, by show (i 0).val / 128 < grid0.N; rw [N_0]; omega⟩, rfl⟩
  obtain ⟨-, -, -, -, -, -, e30, e31⟩ := index_facts t
  refine ⟨t, flush0_3 t, ?_⟩
  rw [mem_blk]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 2048 ≤ (i 1).val ∧ (i 1).val < win0_3.index t (1 : Fin 2) * 2048 + 2048
    omega

/-- THE RESULT ARRAY after the region. -/
theorem final (c : Dev nD) :
    (dat0 V c).arrAt 3 cfg0.N = Cert.Joint.encProj (V c main_v4) (V c main_v2) (V c main_v6) :=
  (dat0 V c).arrAt_eq_of_cover 3 _ (fun t _ => flushed_eq V c t) covered

end Cert.Joint.EncRegion

end
-- ==== Proof.PredRegion.lean ====
/-
  The predictor's projection region, from blocks to the whole array. Grid point t holds rows 128·t … 128·t + 127 of
  the flattened predictor states and the whole transposed weights, and writes back the same rows of their product.
  The two row blocks tile the [256, 2048] result, so after the region the result array is `predProj` of the two
  operand arrays as the region found them.
-/
import proofs.«168008_j84404697301336_2_alg».proof.Proof.Gen.KernelIdeal.Frame
import proofs.«168008_j84404697301336_2_alg».proof.Proof.MatmulBodies

noncomputable section

namespace Cert.Joint.PredRegion

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The block indices over the grid: the row operand and the result move with the point, the weights stay at
    block 0. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block of the body's result is the same block of `predProj`, given that the loaded blocks are the operand's
    row block and the whole weights. -/
theorem block_entry (X : (⟨2, ![256, 512]⟩ : Shape).Idx → EReal) (Wt : (⟨2, ![512, 2048]⟩ : Shape).Idx → EReal)
    (x0 : Vec Ideal S128x512 .f32) (x1 : Vec Ideal S512x2048 .f32)
    (p : Fin 128) (q : Fin 2048) (r : Fin 256)
    (h0 : ∀ k : Fin 512, x0 (ix2 p k) = X (ix2 r k)) (h1 : ∀ k : Fin 512, x1 (ix2 k q) = Wt (ix2 k q)) :
    k1_pay1 (F := Ideal) x0 x1 (ix2 p q) = Cert.Joint.predProj X Wt (ix2 r q) := by
  rw [Cert.Joint.Matmul.pred_body_at, Cert.Joint.predProj_at]
  unfold Cert.Joint.rowDot
  exact Finset.sum_congr rfl fun k _ => by rw [h0 k, h1 k]

/-- What point t writes back is block t of `predProj` of the operand arrays as the region finds them. -/
theorem flushed_eq (c : Dev nD) (t : Fin cfg1.N) :
    (dat1 V c).flushed 2 t = ((cfg1.win 2).blk t).view.read (Elt Ideal)
      (Cert.Joint.predProj (V c main_v5) (V c main_v3)) := by
  show (cfg1.win 2).cut (grid1.coords t) ((dat1 V c).after 2 t) = _
  rw [after1_2]
  unfold out1_2
  rw [View.canon_unit_zero zero2]
  simp only [View.ld_unit_zero (S := S128x512) zero2, View.ld_unit_zero (S := S512x2048) zero2]
  obtain ⟨e00, e01, e10, e11, e20, e21⟩ := index_facts t
  have ht : t.val < 2 := lt_of_lt_of_eq t.isLt N_1
  funext j
  have hj0 : (j 0).val < 128 := (j 0).isLt
  have hj1 : (j 1).val < 2048 := (j 1).isLt
  show k1_pay1 (F := Ideal) (iblk1 V c 0 t) (iblk1 V c 1 t) j
    = Cert.Joint.predProj (V c main_v5) (V c main_v3) (((cfg1.win 2).blk t).view.emb j)
  have ej : j = ix2 (⟨(j 0).val, hj0⟩ : Fin 128) (⟨(j 1).val, hj1⟩ : Fin 2048) :=
    funext fun a => by match a with | ⟨0, _⟩ => rfl | ⟨1, _⟩ => rfl
  refine (congrArg (k1_pay1 (F := Ideal) (iblk1 V c 0 t) (iblk1 V c 1 t)) ej).trans ?_
  refine (block_entry (V c main_v5) (V c main_v3) (iblk1 V c 0 t) (iblk1 V c 1 t)
    ⟨(j 0).val, hj0⟩ ⟨(j 1).val, hj1⟩ ⟨t.val * 128 + (j 0).val, by omega⟩ ?_ ?_).trans ?_
  · intro k
    show V c main_v5 (((cfg1.win 0).blk t).view.emb (ix2 (⟨(j 0).val, hj0⟩ : Fin 128) k)) = _
    refine congrArg _ (funext fun a => Fin.ext ?_)
    match a with
    | ⟨0, _⟩ => show win1_0.index t (0 : Fin 2) * 128 + 1 * (j 0).val = t.val * 128 + (j 0).val; omega
    | ⟨1, _⟩ => show win1_0.index t (1 : Fin 2) * 512 + 1 * k.val = k.val; omega
  · intro k
    show V c main_v3 (((cfg1.win 1).blk t).view.emb (ix2 k (⟨(j 1).val, hj1⟩ : Fin 2048))) = _
    refine congrArg _ (funext fun a => Fin.ext ?_)
    match a with
    | ⟨0, _⟩ => show win1_1.index t (0 : Fin 2) * 512 + 1 * k.val = k.val; omega
    | ⟨1, _⟩ => show win1_1.index t (1 : Fin 2) * 2048 + 1 * (j 1).val = (j 1).val; omega
  · refine congrArg _ (funext fun a => Fin.ext ?_)
    match a with
    | ⟨0, _⟩ => show t.val * 128 + (j 0).val = win1_2.index t (0 : Fin 2) * 128 + 1 * (j 0).val; omega
    | ⟨1, _⟩ => show (j 1).val = win1_2.index t (1 : Fin 2) * 2048 + 1 * (j 1).val; omega

/-- An index of the result array is in point t's block iff each coordinate is in the block's range on its axis. -/
theorem mem_blk (t : Fin cfg1.N) (i : S256x2048.Idx) :
    i ∈ ((cfg1.win 2).blk t).view.set ↔ ∀ a : Fin 2, win1_2.index t a * S128x2048.size a ≤ (i a).val
      ∧ (i a).val < win1_2.index t a * S128x2048.size a + S128x2048.size a := by
  show i ∈ ((View.whole main_v8).slice (win1_2.rect t)).set ↔ _
  rw [View.set_slice_whole, Rect.mem_set_unit]
  exact Iff.rfl

/-- Row r of the result lies in the block of point r / 128: the blocks cover the array. -/
theorem covered (i : S256x2048.Idx) :
    ∃ t : Fin cfg1.N, (cfg1.win 2).flush t = true ∧ i ∈ ((cfg1.win 2).blk t).view.set := by
  have hi0 : (i 0).val < 256 := (i 0).isLt
  have hi1 : (i 1).val < 2048 := (i 1).isLt
  obtain ⟨t, htv⟩ : ∃ t : Fin cfg1.N, t.val = (i 0).val / 128 :=
    ⟨⟨(i 0).val / 128, by show (i 0).val / 128 < grid1.N; rw [N_1]; omega⟩, rfl⟩
  obtain ⟨-, -, -, -, e20, e21⟩ := index_facts t
  refine ⟨t, flush1_2 t, ?_⟩
  rw [mem_blk]
  intro a
  match a with
  | ⟨0, _⟩ =>
    show win1_2.index t (0 : Fin 2) * 128 ≤ (i 0).val ∧ (i 0).val < win1_2.index t (0 : Fin 2) * 128 + 128
    omega
  | ⟨1, _⟩ =>
    show win1_2.index t (1 : Fin 2) * 2048 ≤ (i 1).val ∧ (i 1).val < win1_2.index t (1 : Fin 2) * 2048 + 2048
    omega

/-- THE RESULT ARRAY after the region. -/
theorem final (c : Dev nD) :
    (dat1 V c).arrAt 2 cfg1.N = Cert.Joint.predProj (V c main_v5) (V c main_v3) :=
  (dat1 V c).arrAt_eq_of_cover 2 _ (fun t _ => flushed_eq V c t) covered

end Cert.Joint.PredRegion

end
-- ==== Proof.SumRegion.lean ====
/-
  The broadcast-sum region. Grid point (b, tt) holds a [1, 32, 2048] block E of the encoder's projection (batch b,
  time steps 32·tt … 32·tt + 31) and the [1, 64, 2048] block P of the predictor's projection for batch b, and fills
  its [1, 32, 64, 2048] output block in eight stores, one per run of 8 predictor steps: store j writes, at
  (0, r, s, v) of its [1, 32, 8, 2048] slab, E[0, r, v] + P[0, 8·j + s, v]. Every slab is therefore the restriction
  of ONE function of the block's index, (0, r, u, v) ↦ E[0, r, v] + P[0, u, v], and the slabs tile the block. The
  32 output blocks tile the [4, 256, 64, 2048] result, so after the region the result array is `outer` of the two
  operand arrays as the region found them.
-/
import proofs.«168008_j84404697301336_2_alg».proof.Proof.Gen.KernelIdeal.Frame
import proofs.«168008_j84404697301336_2_alg».proof.Proof.Spec
import proofs.«168008_j84404697301336_2_alg».proof.Proof.LibLayout3
import Idealize.ShloMosaic.Lib.Pipeline.Value
import Idealize.ShloMosaic.Lib.ValueLayout

noncomputable section

namespace Cert.Joint.SumRegion

open Cert.KernelIdeal Cert.KernelIdeal.Gen Idealize.ShloMosaic Idealize.ShloMosaic.TcCoe Idealize.ShloMosaic.ValueIdx
open Idealize.ShloMosaic.Tactic
open Idealize.SL.Sem
open Idealize.ShloMosaic.Pipeline (Dat Cfg Window)

theorem zero3 : (![0, 0, 0] : Fin 3 → Nat) = fun _ => 0 := funext fun a => by fin_cases a <;> rfl

/-! ## One slab -/

/-- A [32, 2048] block seen as [32, 1, 2048] and a [8, 2048] block seen as [1, 8, 2048], both stretched to
    [32, 8, 2048], added, and given a leading unit axis: at (u, r, s, v) it is e[r, v] + p[s, v]. -/
theorem slab_at (e : FVec Ideal S32x2048 .f32) (p8 : FVec Ideal S8x2048 .f32)
    (h1 : S32x2048.ShapeCasts S32x1x2048) (hb1 : S32x1x2048.Broadcasts S32x8x2048)
    (h2 : S8x2048.ShapeCasts S1x8x2048) (hb2 : S1x8x2048.Broadcasts S32x8x2048)
    (h3 : S32x8x2048.ShapeCasts S1x32x8x2048) (u : Fin 1) (r : Fin 32) (s : Fin 8) (v : Fin 2048) :
    shapeCast S1x32x8x2048 (addf (broadcastTo S32x8x2048 (shapeCast S32x1x2048 e h1) hb1)
      (broadcastTo S32x8x2048 (shapeCast S1x8x2048 p8 h2) hb2)) h3 (ix4 u r s v)
      = (e (ix2 r v) : EReal) + p8 (ix2 s v) := by
  refine (shapeCast_abc_1abc_apply _ h3 u r s v).trans ?_
  exact congrArg₂ (· + ·)
    ((Cert.Layout3.broadcastTo_a1c_abc_apply _ hb1 r s v).trans (Cert.Layout3.shapeCast_ac_a1c_apply e h1 r 0 v))
    ((Cert.Layout3.broadcastTo_1bc_abc_apply _ hb2 r s v).trans (shapeCast_ab_1ab_apply p8 h2 0 s v))

/-- The encoder block with its unit axis dropped. -/
theorem enc_rows_at (v0 : Vec Ideal S1x32x2048 .f32) (r : Fin 32) (v : Fin 2048) :
    k2_pay2 (F := Ideal) v0 (ix2 r v) = v0 (ix3 (0 : Fin 1) r v) := by
  unfold k2_pay2
  exact shapeCast_1ab_ab_apply v0 _ r v

/-- The eight slabs, as the body spells them, at (u, r, s, v): the encoder block at (0, r, v) plus the loaded run
    of predictor rows at (0, s, v). -/
theorem slab0_at (v0 : Vec Ideal S1x32x2048 .f32) (w : Vec Ideal S1x8x2048 .f32) (u : Fin 1) (r : Fin 32) (s : Fin 8)
    (v : Fin 2048) : k2_pay3 (F := Ideal) v0 w (ix4 u r s v) = (v0 (ix3 (0 : Fin 1) r v) : EReal) + w (ix3 (0 : Fin 1) s v) := by
  unfold k2_pay3
  refine (slab_at _ _ _ _ _ _ _ u r s v).trans ?_
  exact congrArg₂ (· + ·) (enc_rows_at v0 r v) (shapeCast_1ab_ab_apply w _ s v)

theorem slab1_at (v0 : Vec Ideal S1x32x2048 .f32) (w : Vec Ideal S1x8x2048 .f32) (u : Fin 1) (r : Fin 32) (s : Fin 8)
    (v : Fin 2048) : k2_pay4 (F := Ideal) v0 w (ix4 u r s v) = (v0 (ix3 (0 : Fin 1) r v) : EReal) + w (ix3 (0 : Fin 1) s v) := by
  unfold k2_pay4
  refine (slab_at _ _ _ _ _ _ _ u r s v).trans ?_
  exact congrArg₂ (· + ·) (enc_rows_at v0 r v) (shapeCast_1ab_ab_apply w _ s v)

theorem slab2_at (v0 : Vec Ideal S1x32x2048 .f32) (w : Vec Ideal S1x8x2048 .f32) (u : Fin 1) (r : Fin 32) (s : Fin 8)
    (v : Fin 2048) :
    k2_pay6 (F := Ideal) (k2_pay2 v0) (k2_pay5 w) (ix4 u r s v) = (v0 (ix3 (0 : Fin 1) r v) : EReal) + w (ix3 (0 : Fin 1) s v) := by
  unfold k2_pay6
  refine (slab_at _ _ _ _ _ _ _ u r s v).trans ?_
  refine congrArg₂ (· + ·) (enc_rows_at v0 r v) ?_
  unfold k2_pay5
  exact shapeCast_1ab_ab_apply w _ s v

theorem slab3_at (v0 : Vec Ideal S1x32x2048 .f32) (w : Vec Ideal S1x8x2048 .f32) (u : Fin 1) (r : Fin 32) (s : Fin 8)
    (v : Fin 2048) : k2_pay7 (F := Ideal) (k2_pay2 v0) w (ix4 u r s v) = (v0 (ix3 (0 : Fin 1) r v) : EReal) + w (ix3 (0 : Fin 1) s v) := by
  unfold k2_pay7
  refine (slab_at _ _ _ _ _ _ _ u r s v).trans ?_
  exact congrArg₂ (· + ·) (enc_rows_at v0 r v) (shapeCast_1ab_ab_apply w _ s v)

theorem slab4_at (v0 : Vec Ideal S1x32x2048 .f32) (w : Vec Ideal S1x8x2048 .f32) (u : Fin 1) (r : Fin 32) (s : Fin 8)
    (v : Fin 2048) : k2_pay8 (F := Ideal) (k2_pay2 v0) w (ix4 u r s v) = (v0 (ix3 (0 : Fin 1) r v) : EReal) + w (ix3 (0 : Fin 1) s v) := by
  unfold k2_pay8
  refine (slab_at _ _ _ _ _ _ _ u r s v).trans ?_
  exact congrArg₂ (· + ·) (enc_rows_at v0 r v) (shapeCast_1ab_ab_apply w _ s v)

theorem slab5_at (v0 : Vec Ideal S1x32x2048 .f32) (w : Vec Ideal S1x8x2048 .f32) (u : Fin 1) (r : Fin 32) (s : Fin 8)
    (v : Fin 2048) : k2_pay9 (F := Ideal) (k2_pay2 v0) w (ix4 u r s v) = (v0 (ix3 (0 : Fin 1) r v) : EReal) + w (ix3 (0 : Fin 1) s v) := by
  unfold k2_pay9
  refine (slab_at _ _ _ _ _ _ _ u r s v).trans ?_
  exact congrArg₂ (· + ·) (enc_rows_at v0 r v) (shapeCast_1ab_ab_apply w _ s v)

theorem slab6_at (v0 : Vec Ideal S1x32x2048 .f32) (w : Vec Ideal S1x8x2048 .f32) (u : Fin 1) (r : Fin 32) (s : Fin 8)
    (v : Fin 2048) : k2_pay10 (F := Ideal) (k2_pay2 v0) w (ix4 u r s v) = (v0 (ix3 (0 : Fin 1) r v) : EReal) + w (ix3 (0 : Fin 1) s v) := by
  unfold k2_pay10
  refine (slab_at _ _ _ _ _ _ _ u r s v).trans ?_
  exact congrArg₂ (· + ·) (enc_rows_at v0 r v) (shapeCast_1ab_ab_apply w _ s v)

theorem slab7_at (v0 : Vec Ideal S1x32x2048 .f32) (w : Vec Ideal S1x8x2048 .f32) (u : Fin 1) (r : Fin 32) (s : Fin 8)
    (v : Fin 2048) :
    k2_pay1 (F := Ideal) (k2_pay11 (k2_pay2 v0) w) (ix4 u r s v) = (v0 (ix3 (0 : Fin 1) r v) : EReal) + w (ix3 (0 : Fin 1) s v) := by
  unfold k2_pay1 k2_pay11
  refine (slab_at _ _ _ _ _ _ _ u r s v).trans ?_
  exact congrArg₂ (· + ·) (enc_rows_at v0 r v) (shapeCast_1ab_ab_apply w _ s v)

/-! ## The output block as one function of its index -/

/-- The output block's contents: at (0, r, u, v), E[0, r, v] + P[0, u, v]. -/
def blockSum (x0 : Vec Ideal S1x32x2048 .f32) (x1 : Vec Ideal S1x64x2048 .f32) : S1x32x64x2048.Idx → EReal :=
  fun y => (x0 (ix3 (0 : Fin 1) (y 1) (y 3)) : EReal) + x1 (ix3 (0 : Fin 1) (y 2) (y 3))

/-- A slab stored at offset o along the predictor axis, whose entries are the encoder block plus the run of predictor
    rows loaded at the same offset, is the restriction of `blockSum` to its rectangle. -/
theorem slab_is_restriction (x0 : Vec Ideal S1x32x2048 .f32) (x1 : Vec Ideal S1x64x2048 .f32) (o : Nat)
    (inb4 : ∀ a, (![0, 0, o, 0] : Fin 4 → Nat) a + (![1, 32, 8, 2048] : Fin 4 → Nat) a ≤ S1x32x64x2048.size a)
    (inb3 : ∀ a, (![0, o, 0] : Fin 3 → Nat) a + (![1, 8, 2048] : Fin 3 → Nat) a ≤ S1x64x2048.size a)
    (P : (⟨4, ![1, 32, 8, 2048]⟩ : Shape).Idx → EReal)
    (hP : ∀ (u : Fin 1) (r : Fin 32) (s : Fin 8) (v : Fin 2048), P (ix4 u r s v)
      = (x0 (ix3 (0 : Fin 1) r v) : EReal)
        + View.ld x1 (Rect.unit (s := S1x64x2048) ![0, o, 0] ![1, 8, 2048] inb3) (ix3 (0 : Fin 1) s v))
    (x : (⟨4, ![1, 32, 8, 2048]⟩ : Shape).Idx) :
    P x = blockSum x0 x1 ((Rect.unit (s := S1x32x64x2048) ![0, 0, o, 0] ![1, 32, 8, 2048] inb4).emb x) := by
  obtain ⟨u, r, s, v, rfl⟩ : ∃ (u : Fin 1) (r : Fin 32) (s : Fin 8) (v : Fin 2048), x = ix4 u r s v :=
    ⟨x 0, x 1, x 2, x 3, eq_ix4 x⟩
  rw [hP]
  unfold blockSum
  refine congrArg₂ (· + ·) (congrArg x0 (funext fun a => Fin.ext ?_)) (congrArg x1 (funext fun a => Fin.ext ?_))
  · match a with
    | ⟨0, _⟩ => rfl
    | ⟨1, _⟩ => show r.val = 0 + 1 * r.val; omega
    | ⟨2, _⟩ => show v.val = 0 + 1 * v.val; omega
  · match a with
    | ⟨0, _⟩ => show 0 + 1 * 0 = 0; rfl
    | ⟨1, _⟩ => show o + 1 * s.val = o + 1 * s.val; rfl
    | ⟨2, _⟩ => show 0 + 1 * v.val = 0 + 1 * v.val; rfl

/-- WHAT THE BODY LEAVES in the output's staging buffer: `blockSum` of the two loaded blocks. -/
theorem buffer_eq (c : Dev nD) (i : grid2.Coords) (arg2 : Memref sig .tc .vmem S1x32x2048 .f32) (harg2 : arg2.IsWhole)
    (arg3 : Memref sig .tc .vmem S1x64x2048 .f32) (harg3 : arg3.IsWhole)
    (arg4 : Memref sig .tc .vmem S1x32x64x2048 .f32) (harg4 : arg4.IsWhole)
    (x0 : Vec Ideal S1x32x2048 .f32) (x1 : Vec Ideal S1x64x2048 .f32) :
    out2_A_2 (F := Ideal) c i arg2 harg2 arg3 harg3 arg4 harg4 x0 x1 = blockSum x0 x1 := by
  unfold out2_A_2
  rw [View.read_writes_eq_canon _ _ _ (cover2_A_2 c i arg2 harg2 arg3 harg3 arg4 harg4 x0 x1)]
  funext y
  refine View.canon_apply_of_pieces (blockSum x0 x1) _ ?_ y (cover2_A_2 c i arg2 harg2 arg3 harg3 arg4 harg4 x0 x1 y)
  unfold kernelRun2_A
  dsimp only
  sl_unfold_words
  simp only [View.readAt_eq_ld, harg2.read_unread, harg3.read_unread]
  intro p hp x
  simp only [List.mem_cons, List.not_mem_nil, or_false] at hp
  rcases hp with rfl | rfl | rfl | rfl | rfl | rfl | rfl | rfl
  · exact slab_is_restriction x0 x1 56 (by decide) (by decide) _ (fun u r s v => by
      rw [View.ld_unit_zero (S := S1x32x2048) zero3]; exact slab7_at x0 _ u r s v) x
  · exact slab_is_restriction x0 x1 48 (by decide) (by decide) _ (fun u r s v => by
      rw [View.ld_unit_zero (S := S1x32x2048) zero3]; exact slab6_at x0 _ u r s v) x
  · exact slab_is_restriction x0 x1 40 (by decide) (by decide) _ (fun u r s v => by
      rw [View.ld_unit_zero (S := S1x32x2048) zero3]; exact slab5_at x0 _ u r s v) x
  · exact slab_is_restriction x0 x1 32 (by decide) (by decide) _ (fun u r s v => by
      rw [View.ld_unit_zero (S := S1x32x2048) zero3]; exact slab4_at x0 _ u r s v) x
  · exact slab_is_restriction x0 x1 24 (by decide) (by decide) _ (fun u r s v => by
      rw [View.ld_unit_zero (S := S1x32x2048) zero3]; exact slab3_at x0 _ u r s v) x
  · exact slab_is_restriction x0 x1 16 (by decide) (by decide) _ (fun u r s v => by
      rw [View.ld_unit_zero (S := S1x32x2048) zero3]; exact slab2_at x0 _ u r s v) x
  · exact slab_is_restriction x0 x1 8 (by decide) (by decide) _ (fun u r s v => by
      rw [View.ld_unit_zero (S := S1x32x2048) zero3]; exact slab1_at x0 _ u r s v) x
  · exact slab_is_restriction x0 x1 0 (by decide) (by decide) _ (fun u r s v => by
      rw [View.ld_unit_zero (S := S1x32x2048) zero3]; exact slab0_at x0 _ u r s v) x

end Cert.Joint.SumRegion

end
-- ==== Proof.SumRegionArray.lean ====
/-
  The broadcast-sum region, from blocks to the whole array. Grid point (b, tt) reads block (b, tt, 0) of the encoder's
  projection and block (b, 0, 0) of the predictor's, and writes block (b, tt, 0, 0) of the result; by `buffer_eq`
  what it writes at (0, r, u, v) is E[b, 32·tt + r, v] + P[b, u, v], which is `outer` at (b, 32·tt + r, u, v).
  The 4 × 8 output blocks tile the [4, 256, 64, 2048] result.
-/
import proofs.«168008_j84404697301336_2_alg».proof.Proof.SumRegion

noncomputable section

namespace Cert.Joint.SumRegion

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block indices over the grid: both operands sit in the result's batch; the encoder's block also in its run
    of time steps; every other block index is 0. -/
theorem index_facts : ∀ t : Fin cfg2.N,
    win2_0.index t (0 : Fin 3) = win2_2.index t (0 : Fin 4) ∧ win2_0.index t (1 : Fin 3) = win2_2.index t (1 : Fin 4)
    ∧ win2_0.index t (2 : Fin 3) = 0
    ∧ win2_1.index t (0 : Fin 3) = win2_2.index t (0 : Fin 4) ∧ win2_1.index t (1 : Fin 3) = 0
    ∧ win2_1.index t (2 : Fin 3) = 0
    ∧ win2_2.index t (2 : Fin 4) = 0 ∧ win2_2.index t (3 : Fin 4) = 0
    ∧ win2_2.index t (0 : Fin 4) ≤ 3 ∧ win2_2.index t (1 : Fin 4) ≤ 7 :=
  (by decide +kernel : ∀ t : Fin grid2.N, _)

/-- Every (batch, run of time steps) is some point's block. -/
theorem index_onto : ∀ (q0 : Fin 4) (q1 : Fin 8), ∃ t : Fin cfg2.N,
    win2_2.index t (0 : Fin 4) = q0.val ∧ win2_2.index t (1 : Fin 4) = q1.val :=
  (by decide +kernel : ∀ (q0 : Fin 4) (q1 : Fin 8), ∃ t : Fin grid2.N,
    win2_2.index t (0 : Fin 4) = q0.val ∧ win2_2.index t (1 : Fin 4) = q1.val)

/-- What point t writes back is block t of `outer` of the operand arrays as the region finds them. -/
theorem flushed_eq (c : Dev nD) (t : Fin cfg2.N) :
    (dat2 V c).flushed 2 t = ((cfg2.win 2).blk t).view.read (Elt Ideal)
      (Cert.Joint.outer (V c main_v9) (V c main_v10)) := by
  show (cfg2.win 2).cut (grid2.coords t) ((dat2 V c).after 2 t) = _
  rw [after2_2]
  unfold outsAt2
  have hb := buffer_eq c (grid2.coords t) (ms2_0 t) (hs2_0 t) (ms2_1 t) (hs2_1 t) (ms2_2 t) (hs2_2 t)
    (iblk2 V c 0 t) (iblk2 V c 1 t)
  rw [hb]
  obtain ⟨e00, e01, e02, e10, e11, e12, e22, e23, b0, b1⟩ := index_facts t
  funext j
  have hj0 : (j 0).val < 1 := (j 0).isLt
  have hj1 : (j 1).val < 32 := (j 1).isLt
  have hj2 : (j 2).val < 64 := (j 2).isLt
  have hj3 : (j 3).val < 2048 := (j 3).isLt
  show blockSum (iblk2 V c 0 t) (iblk2 V c 1 t) j
    = Cert.Joint.outer (V c main_v9) (V c main_v10) (((cfg2.win 2).blk t).view.emb j)
  unfold blockSum Cert.Joint.outer
  refine congrArg₂ (· + ·) ?_ ?_
  · show V c main_v9 (((cfg2.win 0).blk t).view.emb (ix3 (0 : Fin 1) (j 1) (j 3))) = V c main_v9 _
    refine congrArg _ (funext fun a => Fin.ext ?_)
    match a with
    | ⟨0, _⟩ =>
      show win2_0.index t (0 : Fin 3) * 1 + 1 * 0 = win2_2.index t (0 : Fin 4) * 1 + 1 * (j 0).val
      omega
    | ⟨1, _⟩ =>
      show win2_0.index t (1 : Fin 3) * 32 + 1 * (j 1).val = win2_2.index t (1 : Fin 4) * 32 + 1 * (j 1).val
      omega
    | ⟨2, _⟩ =>
      show win2_0.index t (2 : Fin 3) * 2048 + 1 * (j 3).val = win2_2.index t (3 : Fin 4) * 2048 + 1 * (j 3).val
      omega
  · show V c main_v10 (((cfg2.win 1).blk t).view.emb (ix3 (0 : Fin 1) (j 2) (j 3))) = V c main_v10 _
    refine congrArg _ (funext fun a => Fin.ext ?_)
    match a with
    | ⟨0, _⟩ =>
      show win2_1.index t (0 : Fin 3) * 1 + 1 * 0 = win2_2.index t (0 : Fin 4) * 1 + 1 * (j 0).val
      omega
    | ⟨1, _⟩ =>
      show win2_1.index t (1 : Fin 3) * 64 + 1 * (j 2).val = win2_2.index t (2 : Fin 4) * 64 + 1 * (j 2).val
      omega
    | ⟨2, _⟩ =>
      show win2_1.index t (2 : Fin 3) * 2048 + 1 * (j 3).val = win2_2.index t (3 : Fin 4) * 2048 + 1 * (j 3).val
      omega

/-- An index of the result array is in point t's block iff each coordinate is in the block's range on its axis. -/
theorem mem_blk (t : Fin cfg2.N) (i : S4x256x64x2048.Idx) :
    i ∈ ((cfg2.win 2).blk t).view.set ↔ ∀ a : Fin 4, win2_2.index t a * S1x32x64x2048.size a ≤ (i a).val
      ∧ (i a).val < win2_2.index t a * S1x32x64x2048.size a + S1x32x64x2048.size a := by
  show i ∈ ((View.whole main_v11).slice (win2_2.rect t)).set ↔ _
  rw [View.set_slice_whole, Rect.mem_set_unit]
  exact Iff.rfl

/-- Entry (b, tm, u, v) of the result lies in the block of the point with batch b and run tm / 32: the blocks cover
    the array. -/
theorem covered (i : S4x256x64x2048.Idx) :
    ∃ t : Fin cfg2.N, (cfg2.win 2).flush t = true ∧ i ∈ ((cfg2.win 2).blk t).view.set := by
  have hi0 : (i 0).val < 4 := (i 0).isLt
  have hi1 : (i 1).val < 256 := (i 1).isLt
  have hi2 : (i 2).val < 64 := (i 2).isLt
  have hi3 : (i 3).val < 2048 := (i 3).isLt
  obtain ⟨t, q0, q1⟩ := index_onto ⟨(i 0).val, hi0⟩ ⟨(i 1).val / 32, by omega⟩
  have q0' : win2_2.index t (0 : Fin 4) = (i 0).val := q0
  have q1' : win2_2.index t (1 : Fin 4) = (i 1).val / 32 := q1
  obtain ⟨-, -, -, -, -, -, e22, e23, -, -⟩ := index_facts t
  refine ⟨t, flush2_2 t, ?_⟩
  rw [mem_blk]
  intro a
  match a with
  | ⟨0, _⟩ =>
    show win2_2.index t (0 : Fin 4) * 1 ≤ (i 0).val ∧ (i 0).val < win2_2.index t (0 : Fin 4) * 1 + 1
    omega
  | ⟨1, _⟩ =>
    show win2_2.index t (1 : Fin 4) * 32 ≤ (i 1).val ∧ (i 1).val < win2_2.index t (1 : Fin 4) * 32 + 32
    omega
  | ⟨2, _⟩ =>
    show win2_2.index t (2 : Fin 4) * 64 ≤ (i 2).val ∧ (i 2).val < win2_2.index t (2 : Fin 4) * 64 + 64
    omega
  | ⟨3, _⟩ =>
    show win2_2.index t (3 : Fin 4) * 2048 ≤ (i 3).val ∧ (i 3).val < win2_2.index t (3 : Fin 4) * 2048 + 2048
    omega

/-- THE RESULT ARRAY after the region. -/
theorem final (c : Dev nD) :
    (dat2 V c).arrAt 2 cfg2.N = Cert.Joint.outer (V c main_v9) (V c main_v10) :=
  (dat2 V c).arrAt_eq_of_cover 2 _ (fun t _ => flushed_eq V c t) covered

end Cert.Joint.SumRegion

end
-- ==== Proof.KernelValue.lean ====
/-
  The kernel program's result as a function of its arguments. Reading the contents at each segment boundary back:
  the first host stretch flattens the encoder and predictor states, cuts the weights in two and transposes each half,
  and makes the bias a row; the two projection regions leave `encProj` and `predProj` of those; the second host
  stretch views the two products per batch; the last region leaves `outer` of those. By `stages_eq` that is `logits`.
-/
import proofs.«168008_j84404697301336_2_alg».proof.Proof.EncRegion
import proofs.«168008_j84404697301336_2_alg».proof.Proof.PredRegion
import proofs.«168008_j84404697301336_2_alg».proof.Proof.SumRegionArray
import Idealize.ShloMosaic.Lib.StableHlo.Run

noncomputable section

namespace Cert.Joint.Kernel

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The first host stretch -/

theorem enc_flat (c : Dev nD) : (V1 m ρ c main_v4 : S1024x512.Idx → EReal)
    = shapeCast S1024x512 (m ((c : Thread nD τ).loc main_arg0)) shapeCasts_S4x256x512_S1024x512 := by
  dsimp only [V1, W1, W0, hostOps0]; after_results; rfl

theorem pred_flat (c : Dev nD) : (V1 m ρ c main_v5 : S256x512.Idx → EReal)
    = shapeCast S256x512 (m ((c : Thread nD τ).loc main_arg1)) shapeCasts_S4x64x512_S256x512 := by
  dsimp only [V1, W1, W0, hostOps0]; after_results; rfl

theorem bias_row (c : Dev nD) : (V1 m ρ c main_v6 : S1x2048.Idx → EReal)
    = shapeCast S1x2048 (m ((c : Thread nD τ).loc main_arg3)) shapeCasts_S2048_S1x2048 := by
  dsimp only [V1, W1, W0, hostOps0]; after_results; rfl

theorem enc_weights (c : Dev nD) : (V1 m ρ c main_v2 : S512x2048.Idx → EReal)
    = transpose S512x2048 [1, 0] (extractStridedSlice S2048x512 ![0, 0] (m ((c : Thread nD τ).loc main_arg2))
        slices_S2048x1024_S2048x512_0_0) transposes_S2048x512_S512x2048_1_0 := by
  dsimp only [V1, W1, W0, hostOps0]; after_results

theorem pred_weights (c : Dev nD) : (V1 m ρ c main_v3 : S512x2048.Idx → EReal)
    = transpose S512x2048 [1, 0] (extractStridedSlice S2048x512 ![0, 512] (m ((c : Thread nD τ).loc main_arg2))
        slices_S2048x1024_S2048x512_0_512) transposes_S2048x512_S512x2048_1_0 := by
  dsimp only [V1, W1, W0, hostOps0]; after_results

/-! ## The two projection regions -/

/-- After the encoder's region its result holds `encProj` of the first stretch's arrays. -/
theorem enc_product (c : Dev nD) : (V2 m ρ c main_v7 : S1024x2048.Idx → EReal)
    = Cert.Joint.encProj (V1 m ρ c main_v4) (V1 m ρ c main_v2) (V1 m ρ c main_v6) :=
  (W2_arr m ρ c 3).trans (Cert.Joint.EncRegion.final (V1 m ρ) c)

/-- The predictor's region reads the first stretch's arrays unchanged by the encoder's region, and leaves the
    encoder's result alone. -/
theorem pred_product (c : Dev nD) : (V3 m ρ c main_v8 : S256x2048.Idx → EReal)
    = Cert.Joint.predProj (V1 m ρ c main_v5) (V1 m ρ c main_v3) := by
  refine ((W3_arr m ρ c 2).trans (Cert.Joint.PredRegion.final (V2 m ρ) c)).trans ?_
  rw [show V2 m ρ c main_v5 = V1 m ρ c main_v5 from W2_of_ne m ρ c main_v5 (by decide),
    show V2 m ρ c main_v3 = V1 m ρ c main_v3 from W2_of_ne m ρ c main_v3 (by decide)]

theorem enc_product_kept (c : Dev nD) : V3 m ρ c main_v7 = V2 m ρ c main_v7 :=
  W3_of_ne m ρ c main_v7 (by decide)

/-! ## The second host stretch -/

theorem enc_batched (c : Dev nD) : (V4 m ρ c main_v9 : S4x256x2048.Idx → EReal)
    = shapeCast S4x256x2048 (V3 m ρ c main_v7) shapeCasts_S1024x2048_S4x256x2048 := by
  dsimp only [V4, W4, hostOps2]; after_results; rfl

theorem pred_batched (c : Dev nD) : (V4 m ρ c main_v10 : S4x64x2048.Idx → EReal)
    = shapeCast S4x64x2048 (V3 m ρ c main_v8) shapeCasts_S256x2048_S4x64x2048 := by
  dsimp only [V4, W4, hostOps2]; after_results; rfl

/-! ## The result -/

/-- What the broadcast-sum region's write-backs leave in the result array is the joint network of the launch
    contents of the four arguments. -/
theorem result_eq (c : Dev nD) : (dat2 (V4 m ρ) c).arrAt 2 cfg2.N
    = Cert.Joint.logits (m ((c : Thread nD τ).loc main_arg0)) (m ((c : Thread nD τ).loc main_arg1))
        (m ((c : Thread nD τ).loc main_arg2)) (m ((c : Thread nD τ).loc main_arg3)) := by
  refine (Cert.Joint.SumRegion.final (V4 m ρ) c).trans ?_
  rw [enc_batched, pred_batched, enc_product_kept, enc_product, pred_product, enc_flat, pred_flat, bias_row,
    enc_weights, pred_weights]
  exact Cert.Joint.stages_eq _ _ _ _ _ _ _ _ _ _ _ _

end Cert.Joint.Kernel

end
-- ==== Proof.RunBoundary.lean ====
/-
  The kernel program's run, read at its end. The program is five segments — a stretch of host operations, the two
  projection regions, a second stretch of host operations, the broadcast-sum region — and the library's launch theorem
  for such a list gives: every weakly fair execution terminates, nothing faulting, and in every final state each buffer
  that lives across the regions holds what the last segment's exit leaves. The segments, their proof data and the
  contents at each boundary are the generated ones; what is supplied here are the launch theorem's own obligations
  (the launch's ghost element, the first thread state from what the launch deals, the last thread state read against
  the final memory), with the reading kept for EVERY cross-region buffer rather than for the arguments alone.
-/
import proofs.«168008_j84404697301336_2_alg».proof.Proof.Gen.KernelIdeal.Frame

noncomputable section

namespace Cert.Joint.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, and every buffer that lives across the
    regions ends at the contents the last region's exit leaves. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- In every final state the result buffer holds what the broadcast-sum region's write-backs leave, and the four
    arguments are as launched. -/
theorem run_result : θ_run defs (onTc (τ := τ) (main (F := F))) ⟨m, fun _ => 0, ρ⟩ (fun r => ∀ c : Dev nD,
      r.2.mem ((c.tc : Thread nD τ).loc main_v11) = (dat2 (V4 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v11 (by decide))).trans (W5_arr m ρ c 2),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩)
    (run_boundary m ρ)

end Cert.Joint.Run

end
-- ==== Proof.lean ====
/-
  The RNN-T joint network: a Pallas kernel in three regions against its jnp reference, equal on the extended reals.

  Both programs compute, from encoder states enc[b,t,·], predictor states pred[b,u,·], weights W[v,·] (first 512
  columns for the encoder, last 512 for the predictor) and a bias bias[v],

      logits[b,t,u,v] = Σ_k enc[b,t,k]·W[v,k] + Σ_k pred[b,u,k]·W[v,512+k] + bias[v].

  The kernel flattens the states, multiplies them by the two transposed halves of the weights in two row-blocked
  regions (rounding the operands to bf16 on the way into the product, which is the identity on the extended reals;
  the encoder's region adds the bias row), and a third region adds the two products broadcast against each other, in
  eight slabs per output block. The reference takes the two contractions on the host, broadcasts, adds them, and adds
  the bias last. So the kernel's entry is (A + bias) + B where the reference's is (A + B) + bias: equal because
  addition on the extended reals is commutative and associative, with no finiteness needed — the precondition is never
  opened. The ideal pass rewrote nothing, so the kernel's idealization is its own text.

  What each array holds after each region is read off the generated frame's proof data (`Cert.Joint.EncRegion`,
  `PredRegion`, `SumRegion`), the regions are chained through the host reshapes (`Cert.Joint.Kernel.result_eq`), and the
  reference's run is the generated one (`Cert.Joint.Reference.stage_eq`); the two meet in `Cert.Joint.logits`.
-/
import proofs.«168008_j84404697301336_2_alg».proof.Defs
import proofs.«168008_j84404697301336_2_alg».proof.Proof.Gen.Kernel
import proofs.«168008_j84404697301336_2_alg».proof.Proof.Gen.Kernel.Frame
import proofs.«168008_j84404697301336_2_alg».proof.Proof.Gen.KernelIdeal
import proofs.«168008_j84404697301336_2_alg».proof.Proof.Gen.KernelIdeal.Frame
import proofs.«168008_j84404697301336_2_alg».proof.Proof.Gen.ReferenceIdeal
import proofs.«168008_j84404697301336_2_alg».proof.Proof.Gen.ReferenceIdeal.Read
import proofs.«168008_j84404697301336_2_alg».proof.Proof.Gen.Pre_finite_inputs
import proofs.«168008_j84404697301336_2_alg».proof.Proof.RefValue
import proofs.«168008_j84404697301336_2_alg».proof.Proof.KernelValue
import proofs.«168008_j84404697301336_2_alg».proof.Proof.RunBoundary
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the four arguments both programs end with `logits` of them in the result buffer. -/
theorem algebraic : Cert.algebraic_KernelIdeal_ReferenceIdeal := by
  intro m ρ m' ρ' _ hagree
  refine ⟨fun c => Cert.Joint.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Joint.Kernel.result_eq m ρ c), (h c).2⟩)
      (Cert.Joint.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.Joint.Reference.stage_eq, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
